-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128x64 : Shape := ⟨4, ![32, 128, 128, 64]⟩
abbrev S_ : Shape := ⟨0, ![]⟩

class Facts : Prop where
  bcast_S_S32x128x128x64 : S_.BroadcastsInDim S32x128x128x64 (![] : Fin 0 → Fin S32x128x128x64.rank)
  reducesTo_S32x128x128x64_S_d0_1_2_3 : S32x128x128x64.ReducesTo [0, 1, 2, 3] S_
  h_S_ : 0 < S_.numel

variable [Facts]

def fn {F : FTy → Type} [FloatOps F] (main_arg0 : FVec F S32x128x128x64 .f32) (main_arg1 : IVec S32x128x128x64 32) : IVec S_ 1 :=
  let main_v0 : FVec F S32x128x128x64 .f32 := Host.absf main_arg0
  let main_cst : FVec F S_ .f32 := constant S_ .f32 0x7F800000#32
  let main_v1 : FVec F S32x128x128x64 .f32 := broadcastInDim S32x128x128x64 ![] bcast_S_S32x128x128x64 main_cst
  let main_v2 : IVec S32x128x128x64 1 := cmpf .olt main_v0 main_v1
  let main_c : IVec S_ 1 := constantI S_ 1 1#1
  let main_v3 : IVec S_ 1 := (fun x v => Host.reduce IntOp.andi x v reducesTo_S32x128x128x64_S_d0_1_2_3 h_S_) main_v2 main_c
  main_v3
-- ==== Kernel.lean ====
abbrev S32x128x128x64 : Shape := ⟨4, ![32, 128, 128, 64]⟩
abbrev S32x256x256x64 : Shape := ⟨4, ![32, 256, 256, 64]⟩
abbrev S1x64x256x64 : Shape := ⟨4, ![1, 64, 256, 64]⟩
abbrev S33554432 : Shape := ⟨1, ![33554432]⟩
abbrev S134217728 : Shape := ⟨1, ![134217728]⟩
abbrev S_ : Shape := ⟨0, ![]⟩
abbrev S33554432x1 : Shape := ⟨2, ![33554432, 1]⟩

abbrev nBuf : Space → Nat
  | .hbm => 16
  | .vmem => 2
  | .smem => 0
  | _ => 0

abbrev bufTy : (tb : Table) → Fin (tcTables nBuf tb) → BufTy
  | .hbm, ⟨0, _⟩ => ⟨S32x128x128x64, .f32⟩
  | .hbm, ⟨1, _⟩ => ⟨S32x128x128x64, .i32⟩
  | .hbm, ⟨2, _⟩ => ⟨S32x256x256x64, .f32⟩
  | .hbm, ⟨3, _⟩ => ⟨S33554432, .i32⟩
  | .hbm, ⟨4, _⟩ => ⟨S33554432, .f32⟩
  | .hbm, ⟨5, _⟩ => ⟨S134217728, .f32⟩
  | .hbm, ⟨6, _⟩ => ⟨S_, .i32⟩
  | .hbm, ⟨7, _⟩ => ⟨S33554432, .i32⟩
  | .hbm, ⟨8, _⟩ => ⟨S33554432, .i1⟩
  | .hbm, ⟨9, _⟩ => ⟨S_, .i32⟩
  | .hbm, ⟨10, _⟩ => ⟨S33554432, .i32⟩
  | .hbm, ⟨11, _⟩ => ⟨S33554432, .i32⟩
  | .hbm, ⟨12, _⟩ => ⟨S33554432, .i32⟩
  | .hbm, ⟨13, _⟩ => ⟨S33554432x1, .i32⟩
  | .hbm, ⟨14, _⟩ => ⟨S134217728, .f32⟩
  | .hbm, ⟨15, _⟩ => ⟨S32x256x256x64, .f32⟩
  | .local _ .vmem, ⟨0, _⟩ => ⟨S1x64x256x64, .f32⟩
  | .local _ .vmem, ⟨1, _⟩ => ⟨S1x64x256x64, .f32⟩
  | _, _ => ⟨S32x128x128x64, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨2, ![32, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

class Facts₀ : Prop where
  inb_S1x64x256x64_S1x64x256x64_0_0_0_0 : ∀ a, (![0, 0, 0, 0] : Fin 4 → Nat) a + S1x64x256x64.size a ≤ S1x64x256x64.size a
  h_S1x64x256x64 : 0 < S1x64x256x64.numel
  shapeCasts_S32x128x128x64_S33554432 : S32x128x128x64.ShapeCasts S33554432
  shapeCasts_S32x256x256x64_S134217728 : S32x256x256x64.ShapeCasts S134217728
  bcast_S_S33554432 : S_.BroadcastsInDim S33554432 (![] : Fin 0 → Fin S33554432.rank)
  bcast_S33554432_S33554432x1_0 : S33554432.BroadcastsInDim S33554432x1 (![0] : Fin 1 → Fin S33554432x1.rank)
  shapeCasts_S134217728_S32x256x256x64 : S134217728.ShapeCasts S32x256x256x64
  scatter_S134217728_S33554432x1_S33554432_n_0_0_1_wf : ScatterDims.WF S134217728 S33554432x1 S33554432 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x64.size a ≤ S32x256x256x64.size a
  hwx0_0 : ∀ i : grid0.Coords, EltTy.bits .f32 = 32 ∨ (Rect.block (s := S32x256x256x64) S1x64x256x64.size (cc0_transform_0 i) (hinb0_0 i)).WholeWords (EltTy.packing .f32)

variable [Facts₀]

def scatter_S134217728_S33554432x1_S33554432_n_0_0_1 : ScatterDims S134217728 S33554432x1 S33554432 where
  updateWindowDims := []
  insertedWindowDims := [0]
  scatterDimsToOperandDims := [0]
  indexVectorDim := 1
  wf := scatter_S134217728_S33554432x1_S33554432_n_0_0_1_wf

abbrev win0_0 : Pipeline.Window sig grid0 :=
  Pipeline.Window.ofSpec (Memref.whole main_v0) S1x64x256x64.size cc0_transform_0 reads0_0 true false 2 stage0_0 sem0_0
    hrank0 hreads0_0 hinb0_0 nbuf0_0 (Memref.isWhole_whole _) hwx0_0 hstage0_0

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S32x128x128x64 : Shape := ⟨4, ![32, 128, 128, 64]⟩
abbrev S_ : Shape := ⟨0, ![]⟩
abbrev S134217728 : Shape := ⟨1, ![134217728]⟩
abbrev S33554432 : Shape := ⟨1, ![33554432]⟩
abbrev S33554432x1 : Shape := ⟨2, ![33554432, 1]⟩
abbrev S32x256x256x64 : Shape := ⟨4, ![32, 256, 256, 64]⟩

abbrev nBuf : Space → Nat
  | .hbm => 16
  | .vmem => 0
  | .smem => 0
  | _ => 0

abbrev bufTy : (tb : Table) → Fin (tcTables nBuf tb) → BufTy
  | .hbm, ⟨0, _⟩ => ⟨S32x128x128x64, .f32⟩
  | .hbm, ⟨1, _⟩ => ⟨S32x128x128x64, .i32⟩
  | .hbm, ⟨2, _⟩ => ⟨S_, .f32⟩
  | .hbm, ⟨3, _⟩ => ⟨S134217728, .f32⟩
  | .hbm, ⟨4, _⟩ => ⟨S33554432, .i32⟩
  | .hbm, ⟨5, _⟩ => ⟨S33554432, .f32⟩
  | .hbm, ⟨6, _⟩ => ⟨S_, .i32⟩
  | .hbm, ⟨7, _⟩ => ⟨S33554432, .i32⟩
  | .hbm, ⟨8, _⟩ => ⟨S33554432, .i1⟩
  | .hbm, ⟨9, _⟩ => ⟨S_, .i32⟩
  | .hbm, ⟨10, _⟩ => ⟨S33554432, .i32⟩
  | .hbm, ⟨11, _⟩ => ⟨S33554432, .i32⟩
  | .hbm, ⟨12, _⟩ => ⟨S33554432, .i32⟩
  | .hbm, ⟨13, _⟩ => ⟨S33554432x1, .i32⟩
  | .hbm, ⟨14, _⟩ => ⟨S134217728, .f32⟩
  | .hbm, ⟨15, _⟩ => ⟨S32x256x256x64, .f32⟩
  | _, _ => ⟨S32x128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S_S134217728 : S_.BroadcastsInDim S134217728 (![] : Fin 0 → Fin S134217728.rank)
  shapeCasts_S32x128x128x64_S33554432 : S32x128x128x64.ShapeCasts S33554432
  bcast_S_S33554432 : S_.BroadcastsInDim S33554432 (![] : Fin 0 → Fin S33554432.rank)
  bcast_S33554432_S33554432x1_0 : S33554432.BroadcastsInDim S33554432x1 (![0] : Fin 1 → Fin S33554432x1.rank)
  shapeCasts_S134217728_S32x256x256x64 : S134217728.ShapeCasts S32x256x256x64
  scatter_S134217728_S33554432x1_S33554432_n_0_0_1_wf : ScatterDims.WF S134217728 S33554432x1 S33554432 [] [0] [0] 1

variable [Facts₀]

def scatter_S134217728_S33554432x1_S33554432_n_0_0_1 : ScatterDims S134217728 S33554432x1 S33554432 where
  updateWindowDims := []
  insertedWindowDims := [0]
  scatterDimsToOperandDims := [0]
  indexVectorDim := 1
  wf := scatter_S134217728_S33554432x1_S33554432_n_0_0_1_wf

class Facts : Prop extends Facts₀ where

variable [Facts]
-- ==== Proof.KernelZeros.lean ====
/-
  The array the zero-filling region leaves.

  The region's grid has 32 × 4 points. Point (b, q) writes one block of shape [1, 64, 256, 64] of the region's
  array of shape [32, 256, 256, 64]: batch `b`, rows 64·q … 64·q + 63, every column and channel. The body stores
  the zero word at every entry of the block, reading nothing. The 128 blocks tile the array (entry (b, r, ·, ·) is
  in the block of point (b, r / 64)), so after the region every entry of the array is the zero word.
-/
import proofs.«126657_j10033043604222_2_alg».proof.Proof.KernelIdealFrameP
import Idealize.ShloMosaic.Lib.Pipeline.Value

noncomputable section

namespace Cert.KernelIdeal.Zeros

open Cert.KernelIdeal Cert.KernelIdeal.Gen Cert.KernelIdeal.GenP Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The body's one store starts at the block's origin. -/
theorem origin : (![0, 0, 0, 0] : Fin 4 → Nat) = fun _ => 0 := funext fun a => by fin_cases a <;> rfl

/-- The array of zeros of shape [32, 256, 256, 64]. -/
abbrev zeros : S32x256x256x64.Idx → Elt F .f32 := fun _ => FloatOps.ofBits .f32 0x00000000#32

/-- What point `t` writes back is its block of the array of zeros: the body's store covers the block with the zero
    word. -/
theorem flushed_zeros (c : Dev nD) (t : Fin cfg0.N) :
    (dats m 0 c).flushed 0 t = ((cfg0.win 0).blk t).view.read (Elt F) (zeros (F := F)) := by
  show (cfg0.win 0).cut (grid0.coords t) ((dats m 0 c).after 0 t) = _
  rw [after0_0]
  unfold out0_0
  rw [View.canon_unit_zero origin]
  funext j
  rfl

/-- An index of the array is in point `t`'s block iff each coordinate is in the block's range on its axis. -/
theorem mem_block (t : Fin cfg0.N) (i : S32x256x256x64.Idx) :
    i ∈ ((cfg0.win 0).blk t).view.set ↔ ∀ a : Fin 4, win0_0.index t a * S1x64x256x64.size a ≤ (i a).val
      ∧ (i a).val < win0_0.index t a * S1x64x256x64.size a + S1x64x256x64.size a := by
  show i ∈ ((View.whole main_v0).slice (win0_0.rect t)).set ↔ _
  rw [View.set_slice_whole, Rect.mem_set_unit]
  exact Iff.rfl

/-- Every batch and every quarter of the rows is some point's block (decided over the 128 points). -/
theorem block_of : ∀ (b : Fin 32) (q : Fin 4), ∃ t : Fin cfg0.N, win0_0.index t = ![b.val, q.val, 0, 0] :=
  (by decide +kernel : ∀ (b : Fin 32) (q : Fin 4), ∃ t : Fin grid0.N, win0_0.index t = ![b.val, q.val, 0, 0])

/-- The blocks cover the array: entry (b, r, ·, ·) is in the block of batch `b` and quarter `r / 64`. -/
theorem covered (i : S32x256x256x64.Idx) :
    ∃ t : Fin cfg0.N, (cfg0.win 0).flush t = true ∧ i ∈ ((cfg0.win 0).blk t).view.set := by
  have h0 : (i 0).val < 32 := (i 0).isLt
  have h1 : (i 1).val < 256 := (i 1).isLt
  have h2 : (i 2).val < 256 := (i 2).isLt
  have h3 : (i 3).val < 64 := (i 3).isLt
  obtain ⟨t, ht⟩ := block_of ⟨(i 0).val, h0⟩ ⟨(i 1).val / 64, by omega⟩
  have q0 : win0_0.index t (0 : Fin 4) = (i 0).val := congrFun ht 0
  have q1 : win0_0.index t (1 : Fin 4) = (i 1).val / 64 := congrFun ht 1
  have q2 : win0_0.index t (2 : Fin 4) = 0 := congrFun ht 2
  have q3 : win0_0.index t (3 : Fin 4) = 0 := congrFun ht 3
  refine ⟨t, flush0_0 t, ?_⟩
  rw [mem_block]
  intro a
  match a with
  | ⟨0, _⟩ => show win0_0.index t (0 : Fin 4) * 1 ≤ (i 0).val ∧ (i 0).val < win0_0.index t (0 : Fin 4) * 1 + 1; omega
  | ⟨1, _⟩ => show win0_0.index t (1 : Fin 4) * 64 ≤ (i 1).val ∧ (i 1).val < win0_0.index t (1 : Fin 4) * 64 + 64; omega
  | ⟨2, _⟩ => show win0_0.index t (2 : Fin 4) * 256 ≤ (i 2).val ∧ (i 2).val < win0_0.index t (2 : Fin 4) * 256 + 256; omega
  | ⟨3, _⟩ => show win0_0.index t (3 : Fin 4) * 64 ≤ (i 3).val ∧ (i 3).val < win0_0.index t (3 : Fin 4) * 64 + 64; omega

/-- After the region its array is the array of zeros. -/
theorem final_zeros (c : Dev nD) : (dats m 0 c).arrAt 0 cfg0.N = zeros (F := F) :=
  (dats m 0 c).arrAt_eq_of_cover 0 (zeros (F := F)) (fun t _ => flushed_zeros m c t) covered

end Cert.KernelIdeal.Zeros

end
-- ==== Proof.Unpool.lean ====
/-
  Max-unpooling as one function of the argument arrays.

  A pooled array `x` of shape [32, 128, 128, 64] comes with an integer array `ind` of the same shape: entry `k`
  of `ind` (both arrays read flat, row-major, 33554432 entries) is the flat position, among the 134217728
  entries of the unpooled array of shape [32, 256, 256, 64], that entry `k` of `x` is added to. A negative
  position counts from the end (`ind + 134217728`). Positions may repeat: the contributions are summed.
  Stated here over an arbitrary starting array `z` (flat, 134217728 entries) that the contributions are added to;
  both programs start from zeros, one written as a [32, 256, 256, 64] array of zeros read flat and the other as a
  flat array of zeros, and `flat_zeros` says these are one array.
-/
import Idealize.ShloMosaic.PureOps

noncomputable section

namespace Cert.Unpool

open Idealize.ShloMosaic

variable {F : FTy → Type} [FloatOps F]

/-- The pooled array and its positions. -/
abbrev SPooled : Shape := ⟨4, ![32, 128, 128, 64]⟩
/-- The unpooled array. -/
abbrev SUnpooled : Shape := ⟨4, ![32, 256, 256, 64]⟩
/-- The pooled array read flat. -/
abbrev SUpdates : Shape := ⟨1, ![33554432]⟩
/-- The unpooled array read flat. -/
abbrev SFlat : Shape := ⟨1, ![134217728]⟩
/-- The positions as a column: one index vector of length one per update. -/
abbrev SColumn : Shape := ⟨2, ![33554432, 1]⟩
/-- A scalar. -/
abbrev SScalar : Shape := ⟨0, ![]⟩

/-- The flat positions with a negative one counted from the end: `ind < 0 ? ind + 134217728 : ind`. -/
def positions (hflat : SPooled.ShapeCasts SUpdates)
    (hsplat : SScalar.BroadcastsInDim SUpdates (![] : Fin 0 → Fin SUpdates.rank))
    (ind : IVec SPooled 32) : IVec SUpdates 32 :=
  select (cmpi .slt (shapeCast _ ind hflat) (broadcastInDim SUpdates ![] hsplat (constantI SScalar 32 0#32)))
    (addi (shapeCast _ ind hflat) (broadcastInDim SUpdates ![] hsplat (constantI SScalar 32 134217728#32)))
    (shapeCast _ ind hflat)

/-- The unpooled array: every entry of `x`, read flat, added into `z` at its position, and the result read as
    [32, 256, 256, 64]. -/
def unpool (hflat : SPooled.ShapeCasts SUpdates)
    (hsplat : SScalar.BroadcastsInDim SUpdates (![] : Fin 0 → Fin SUpdates.rank))
    (hcol : SUpdates.BroadcastsInDim SColumn (![0] : Fin 1 → Fin SColumn.rank))
    (hout : SFlat.ShapeCasts SUnpooled)
    (d : ScatterDims SFlat SColumn SUpdates)
    (z : FVec F SFlat .f32) (x : FVec F SPooled .f32) (ind : IVec SPooled 32) : FVec F SUnpooled .f32 :=
  shapeCast _ (Host.scatterAdd d z (broadcastInDim SColumn ![0] hcol (positions hflat hsplat ind))
    (shapeCast _ x hflat)) hout

/-- An array of zeros of shape [32, 256, 256, 64] read flat is the flat array of zeros: every entry of either is
    the one zero word, wherever the flat index falls. -/
theorem flat_zeros (hz : SUnpooled.ShapeCasts SFlat)
    (hb : SScalar.BroadcastsInDim SFlat (![] : Fin 0 → Fin SFlat.rank)) :
    shapeCast SFlat (fun _ : SUnpooled.Idx => (FloatOps.ofBits .f32 0x00000000#32 : F .f32)) hz
      = broadcastInDim SFlat ![] hb (constant (F := F) SScalar .f32 0x00000000#32) := by
  funext i
  rfl

end Cert.Unpool

end
-- ==== Proof.KernelUnpool.lean ====
/-
  What the kernel program computes.

  After the zero-filling region, the program reads the region's array flat, wraps the positions, adds every entry of
  the pooled array into the flat array at its position and reads the result as [32, 256, 256, 64]. The region's array
  is the array of zeros (`Zeros.final_zeros`) and the lines after the region do not touch the two argument arrays,
  so the result is `Unpool.unpool` of the zeros read flat and the two arguments as launched.
-/
import proofs.«126657_j10033043604222_2_alg».proof.Proof.KernelZeros
import proofs.«126657_j10033043604222_2_alg».proof.Proof.Unpool
import Idealize.ShloMosaic.Lib.StableHlo.Run

noncomputable section

namespace Cert.KernelIdeal.Unpooled

open Cert.KernelIdeal Cert.KernelIdeal.Gen Cert.KernelIdeal.GenP Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The kernel program's result as a function of the arguments: the pooled entries added into zeros. -/
abbrev result (x : FVec F S32x128x128x64 .f32) (ind : IVec S32x128x128x64 32) : FVec F S32x256x256x64 .f32 :=
  Unpool.unpool shapeCasts_S32x128x128x64_S33554432 bcast_S_S33554432 bcast_S33554432_S33554432x1_0
    shapeCasts_S134217728_S32x256x256x64 scatter_S134217728_S33554432x1_S33554432_n_0_0_1
    (shapeCast _ (Zeros.zeros (F := F)) shapeCasts_S32x256x256x64_S134217728) x ind

/-- The lines after the region, read back: the region's array is the zeros, the arguments are as launched, and the
    operations between are `Unpool.unpool`'s, one for one. -/
theorem tail_eq (c : Dev nD) :
    Pipeline.afterTail₀ cfgs (dats m) 0 (V0 m) [hostOps1] c main_v11
      = result (F := F) (m ((c.tc : Thread nD τ).loc main_arg0)) (m ((c.tc : Thread nD τ).loc main_arg1)) := by
  unfold Pipeline.afterTail₀
  show StableHlo.after hostOps1 _ (Proc.devRef .tc main_v11) = _
  after_results
  have e0 : Pipeline.withArrays (cfgs 0).spec c (V0 m c) (fun w => (dats m 0 c).arrAt w (cfgs 0).N)
      (Proc.devRef .tc main_v0) = Zeros.zeros (F := F) :=
    (Pipeline.withArrays_arr spec0 launch0.win.arr_inj c (V0 m c) (fun w => (dats m 0 c).arrAt w (cfgs 0).N) 0).trans
      (Zeros.final_zeros m c)
  have e1 : Pipeline.withArrays (cfgs 0).spec c (V0 m c) (fun w => (dats m 0 c).arrAt w (cfgs 0).N)
      (Proc.devRef .tc main_arg0) = m ((c.tc : Thread nD τ).loc main_arg0) :=
    (Pipeline.withArrays_of_ne _ c (V0 m c) _ main_arg0
      (by exact (by decide : ∀ w, Pipeline.arrRef spec0 w ≠ main_arg0))).trans (V_main_arg0 m c)
  have e2 : Pipeline.withArrays (cfgs 0).spec c (V0 m c) (fun w => (dats m 0 c).arrAt w (cfgs 0).N)
      (Proc.devRef .tc main_arg1) = m ((c.tc : Thread nD τ).loc main_arg1) :=
    (Pipeline.withArrays_of_ne _ c (V0 m c) _ main_arg1
      (by exact (by decide : ∀ w, Pipeline.arrRef spec0 w ≠ main_arg1))).trans (V_main_arg1 m c)
  rw [e0, e1, e2]
  rfl

/-- Every weakly fair execution of the kernel program terminates with its result at `result` of the arguments and
    the arguments unchanged. -/
theorem run : θ_run defs (onTc (τ := τ) (main (F := F))) ⟨m, fun _ => 0, ρ⟩ fun r => ∀ c : Dev nD,
      r.2.mem ((c.tc : Thread nD τ).loc main_v11)
        = result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v11 (Pipeline.mem_restRefs_of main_v11 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Unpooled

end
-- ==== Proof.SameFunction.lean ====
/-
  The two programs compute one function.

  The reference adds the pooled entries into a flat array of zeros; the kernel program adds them into the zeros its
  region wrote, read flat. These are one array (`Unpool.flat_zeros`), and everything after it — the wrapped
  positions, the sum over the entries landing on a position, the reading of the flat result as [32, 256, 256, 64] —
  is the same operations on the same arguments, so the two results are equal with no law of arithmetic used and
  no finiteness needed.
-/
import proofs.«126657_j10033043604222_2_alg».proof.Proof.KernelUnpool
import proofs.«126657_j10033043604222_2_alg».proof.Proof.Gen.ReferenceIdeal.Run

noncomputable section

namespace Cert.ReferenceIdeal.Unpooled

open Cert.ReferenceIdeal Cert.ReferenceIdeal.Gen Idealize.ShloMosaic

variable {F : FTy → Type} [FloatOps F]

/-- The reference run's result term is the kernel program's `result` of the same arguments. -/
theorem same_function (x : FVec F S32x128x128x64 .f32) (ind : IVec S32x128x128x64 32) :
    shapeCast _ (Host.scatterAdd scatter_S134217728_S33554432x1_S33554432_n_0_0_1
        (broadcastInDim S134217728 ![] bcast_S_S134217728 (constant S_ .f32 0x00000000#32))
        (broadcastInDim S33554432x1 ![0] bcast_S33554432_S33554432x1_0
          (select (cmpi .slt (shapeCast _ ind shapeCasts_S32x128x128x64_S33554432)
              (broadcastInDim S33554432 ![] bcast_S_S33554432 (constantI S_ 32 0#32)))
            (addi (shapeCast _ ind shapeCasts_S32x128x128x64_S33554432)
              (broadcastInDim S33554432 ![] bcast_S_S33554432 (constantI S_ 32 134217728#32)))
            (shapeCast _ ind shapeCasts_S32x128x128x64_S33554432)))
        (shapeCast _ x shapeCasts_S32x128x128x64_S33554432)) shapeCasts_S134217728_S32x256x256x64
      = Cert.KernelIdeal.Unpooled.result (F := F) x ind := by
  have hz : shapeCast Unpool.SFlat (Cert.KernelIdeal.Zeros.zeros (F := F))
        Cert.KernelIdeal.Gen.shapeCasts_S32x256x256x64_S134217728
      = broadcastInDim S134217728 ![] bcast_S_S134217728 (constant (F := F) S_ .f32 0x00000000#32) :=
    Unpool.flat_zeros _ _
  show _ = Unpool.unpool _ _ _ _ _ (shapeCast Unpool.SFlat (Cert.KernelIdeal.Zeros.zeros (F := F))
    Cert.KernelIdeal.Gen.shapeCasts_S32x256x256x64_S134217728) x ind
  rw [hz]
  rfl

end Cert.ReferenceIdeal.Unpooled

end
-- ==== Proof.lean ====
/-
  Max-unpooling by a scatter-add: zeros written block by block against zeros written at once.

  Both programs add every entry of a pooled array of shape [32, 128, 128, 64] into an array of zeros of shape
  [32, 256, 256, 64] at the flat position its companion integer array names (a negative position counted from the
  end, repeated positions summed). The reference starts from a flat array of zeros; the kernel program starts from
  zeros written by a region of 32 × 4 points, each storing the zero word over one block of shape [1, 64, 256, 64].
  The blocks tile the array, so the region leaves the array of zeros (Proof/KernelZeros.lean); the lines after the
  region are read back as one function of that array and the arguments (Proof/Unpool.lean, Proof/KernelUnpool.lean);
  and the reference's run computes the same function of the same arguments (Proof/SameFunction.lean). The two
  results are equal term for term: no law of arithmetic is used, and the precondition is never opened.
  The three frames are the programs' runs with the results dropped; nothing was rewritten by the ideal pass, so
  the idealization claim is trivial.
-/
import proofs.«126657_j10033043604222_2_alg».proof.Defs
import proofs.«126657_j10033043604222_2_alg».proof.Proof.Gen.Kernel
import proofs.«126657_j10033043604222_2_alg».proof.Proof.Gen.Kernel.Skeleton
import proofs.«126657_j10033043604222_2_alg».proof.Proof.Gen.Kernel.Launch
import proofs.«126657_j10033043604222_2_alg».proof.Proof.Gen.Kernel.Points
import proofs.«126657_j10033043604222_2_alg».proof.Proof.KernelFrameP
import proofs.«126657_j10033043604222_2_alg».proof.Proof.Gen.KernelIdeal
import proofs.«126657_j10033043604222_2_alg».proof.Proof.Gen.KernelIdeal.Skeleton
import proofs.«126657_j10033043604222_2_alg».proof.Proof.Gen.KernelIdeal.Launch
import proofs.«126657_j10033043604222_2_alg».proof.Proof.Gen.KernelIdeal.Points
import proofs.«126657_j10033043604222_2_alg».proof.Proof.KernelIdealFrameP
import proofs.«126657_j10033043604222_2_alg».proof.Proof.Gen.ReferenceIdeal
import proofs.«126657_j10033043604222_2_alg».proof.Proof.Gen.Pre_finite_inputs
import proofs.«126657_j10033043604222_2_alg».proof.Proof.Gen.ReferenceIdeal.Run
import proofs.«126657_j10033043604222_2_alg».proof.Proof.SameFunction
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.GenP.frame m ρ

/-- So does the idealized kernel program. -/
theorem frame_kernelIdeal : Cert.frame_KernelIdeal := fun m ρ _ => Cert.KernelIdeal.GenP.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the pooled entries added into zeros at their
    positions: the kernel program by its run, the reference by its run and `same_function`. -/
theorem algebraic : Cert.algebraic_KernelIdeal_ReferenceIdeal := by
  intro m ρ m' ρ' _ hagree
  refine ⟨_, Cert.KernelIdeal.Unpooled.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.Unpooled.same_function _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
